-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S512x128 : Shape := ⟨2, ![512, 128]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S100000x128 .f32) (main_arg1 : IVec S2x600000 32) (main_arg2 : FVec F S512x128 .f32) (main_arg3 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S512x128 : Shape := ⟨2, ![512, 128]⟩
abbrev S512 : Shape := ⟨1, ![512]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S128x512 : Shape := ⟨2, ![128, 512]⟩
abbrev S1x512 : Shape := ⟨2, ![1, 512]⟩
abbrev S100000x512 : Shape := ⟨2, ![100000, 512]⟩
abbrev S2000x128 : Shape := ⟨2, ![2000, 128]⟩
abbrev S2000x512 : Shape := ⟨2, ![2000, 512]⟩

abbrev nBuf : Space → Nat
  | .hbm => 25
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S512x128, .f32⟩
  | .hbm, ⟨3, _⟩ => ⟨S512, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S128x512, .f32⟩
  | .hbm, ⟨22, _⟩ => ⟨S128x512, .bf16⟩
  | .hbm, ⟨23, _⟩ => ⟨S1x512, .f32⟩
  | .hbm, ⟨24, _⟩ => ⟨S100000x512, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .bf16⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S512x128_S128x512_1_0 : S512x128.Transposes [1, 0] S128x512
  bitsLt_bf16_f32 : FTy.bits .bf16 < FTy.bits .f32
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S100000x512.size a
  hwx0_4 : ∀ i : grid0.Coords, EltTy.bits .f32 = 32 ∨ (Rect.block (s := S100000x512) S2000x512.size (cc0_transform_4 i) (hinb0_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S512x128 : Shape := ⟨2, ![512, 128]⟩
abbrev S512 : Shape := ⟨1, ![512]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S128x512 : Shape := ⟨2, ![128, 512]⟩
abbrev S100000x512 : Shape := ⟨2, ![100000, 512]⟩
abbrev S1x512 : Shape := ⟨2, ![1, 512]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S512x128, .f32⟩
  | .hbm, ⟨3, _⟩ => ⟨S512, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S100000x128, .f32⟩
  | .hbm, ⟨22, _⟩ => ⟨S128x512, .f32⟩
  | .hbm, ⟨23, _⟩ => ⟨S100000x512, .f32⟩
  | .hbm, ⟨24, _⟩ => ⟨S1x512, .f32⟩
  | .hbm, ⟨25, _⟩ => ⟨S100000x512, .f32⟩
  | .hbm, ⟨26, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x512_S100000x512_1_0_0_1_n_n_wf : DotDims.WF S100000x128 S128x512 S100000x512 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf

class Facts : Prop extends Facts₀ where

variable [Facts]
-- ==== Proof.ResidualLinear.lean ====
/-
  The array both programs compute, entry by entry, on the extended reals.

  With `x` the node features (100000 × 128), `a` the aggregated neighbour features (same shape),
  `w` the weight matrix (512 × 128) and `b` the bias (512), the result is the residual `x + a`
  multiplied by the transpose of `w`, plus the bias on every row:

      out[p, c] = Σ_{q < 128} (x[p, q] + a[p, q]) · w[c, q]  +  b[c].

  Both programs form exactly this sum, term for term in the same order, so no law of the extended
  reals beyond reading each operation at an index is needed, and no finiteness of the inputs.
-/
import Idealize.ShloMosaic.PureOps.Ideal
import Idealize.ShloMosaic.Lib.ValueIdx

noncomputable section

open scoped BigOperators

namespace Cert.ResidualLinear

open Idealize.ShloMosaic Idealize.ShloMosaic.ValueIdx

/-- Entry `(p, c)` of the result: row `p` of the residual `x + a` against row `c` of the weights, plus bias entry `c`. -/
def entry (x a : (⟨2, ![100000, 128]⟩ : Shape).Idx → EReal) (w : (⟨2, ![512, 128]⟩ : Shape).Idx → EReal)
    (b : (⟨1, ![512]⟩ : Shape).Idx → EReal) (p : Fin 100000) (c : Fin 512) : EReal :=
  (∑ q : Fin 128, (x (ix2 p q) + a (ix2 p q)) * w (ix2 c q)) + b (ix1 c)

/-- The whole result array. -/
def out (x a : (⟨2, ![100000, 128]⟩ : Shape).Idx → EReal) (w : (⟨2, ![512, 128]⟩ : Shape).Idx → EReal)
    (b : (⟨1, ![512]⟩ : Shape).Idx → EReal) : (⟨2, ![100000, 512]⟩ : Shape).Idx → EReal :=
  fun i => entry x a w b ⟨(i 0).val, idx2_lt0 i⟩ ⟨(i 1).val, idx2_lt1 i⟩

variable (x a : (⟨2, ![100000, 128]⟩ : Shape).Idx → EReal) (w : (⟨2, ![512, 128]⟩ : Shape).Idx → EReal)
  (b : (⟨1, ![512]⟩ : Shape).Idx → EReal)

theorem out_apply (p : Fin 100000) (c : Fin 512) : out x a w b (ix2 p c) = entry x a w b p c := rfl

/-- An array that holds `entry` at every position is `out`. -/
theorem eq_out (f : (⟨2, ![100000, 512]⟩ : Shape).Idx → EReal) (h : ∀ p c, f (ix2 p c) = entry x a w b p c) :
    f = out x a w b := by
  funext i
  obtain ⟨p, c, rfl⟩ : ∃ (p : Fin 100000) (c : Fin 512), i = ix2 p c := ⟨i 0, i 1, eq_ix2 i⟩
  exact h p c

end Cert.ResidualLinear

end
-- ==== Proof.RegionArrays.lean ====
/-
  The arrays the kernel's region finds.

  Before the region the host has produced three arrays from the arguments: the aggregated neighbour
  features (rows of the features gathered at the edges' sources and added into the edges' targets),
  the transposed weight matrix narrowed to a 16-bit format, and the bias as a 1 × 512 row. The host
  operations that build the aggregate are, one for one, the operations of the reference, so the
  aggregate is the reference's own stage and is never opened. The narrowing is the identity on the
  extended reals, so entry `(q, k)` of the second array is entry `(k, q)` of the weights; entry
  `(0, k)` of the third is entry `k` of the bias.
-/
import proofs.«171080_j81080392614287_1_alg».proof.Proof.Gen.KernelIdeal.Frame
import proofs.«171080_j81080392614287_1_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The aggregated neighbour features, as the region finds them, are the reference's scatter-add stage of the
    same two arguments: the two programs' host operations up to there are the same list. -/
theorem agg_eq (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results <;> rfl

set_option maxHeartbeats 2000000 in
/-- The weight window's array is the transposed weights, narrowed. -/
theorem wt_eq (c : Dev nD) :
    (V m c main_v15 : S128x512.Idx → EReal)
      = (truncf (F := Ideal) .bf16 (transpose S128x512 [1, 0] (m ((c : Thread nD τ).loc main_arg2) : S512x128.Idx → EReal) transposes_S512x128_S128x512_1_0) bitsLt_bf16_f32 : S128x512.Idx → EReal) := by
  dsimp only [Gen.V, Gen.hostOps0]
  after_results <;> rfl

set_option maxHeartbeats 2000000 in
/-- The bias window's array is the bias reshaped to one row. -/
theorem brow_eq (c : Dev nD) :
    (V m c main_v16 : S1x512.Idx → EReal)
      = (shapeCast S1x512 (m ((c : Thread nD τ).loc main_arg3) : S512.Idx → EReal) shapeCasts_S512_S1x512 : S1x512.Idx → EReal) := by
  dsimp only [Gen.V, Gen.hostOps0]
  after_results <;> rfl

/-- Entry `(q, k)` of the weight window's array is entry `(k, q)` of the weights. -/
theorem wt_apply (c : Dev nD) (q : Fin 128) (k : Fin 512) :
    (V m c main_v15 : S128x512.Idx → EReal) (ix2 q k) = (m ((c : Thread nD τ).loc main_arg2) : S512x128.Idx → EReal) (ix2 k q) := by
  rw [wt_eq]
  exact transpose_apply [1, 0] _ transposes_S512x128_S128x512_1_0 (ix2 q k) (ix2 k q) (fun b => by
    match b with
    | ⟨0, _⟩ => rfl
    | ⟨1, _⟩ => rfl)

/-- Entry `(0, k)` of the bias window's array is entry `k` of the bias. -/
theorem brow_apply (c : Dev nD) (k : Fin 512) :
    (V m c main_v16 : S1x512.Idx → EReal) (ix2 (0 : Fin 1) k) = (m ((c : Thread nD τ).loc main_arg3) : S512.Idx → EReal) (ix1 k) := by
  rw [brow_eq]
  exact shapeCast_a_1a_apply _ shapeCasts_S512_S1x512 0 k

end Cert.KernelIdeal.Hand

end
-- ==== Proof.BlockPlacement.lean ====
/-
  Where each fetched block sits in its array.

  The grid has 50 points. At point `t` the features' window and the aggregate's window fetch rows
  `2000·t … 2000·t + 1999` (all 128 columns); the weights' window and the bias' window fetch their whole
  array at every point. An entry of a fetched block is therefore an entry of the array it came from:
  row `p` of a row block is row `2000·t + p` of the array, and the two whole blocks are the transposed
  weights and the bias row themselves. Each fact is first stated for an arbitrary array in the window's
  place (only the window's geometry matters), then read at the array the region finds there.
-/
import proofs.«171080_j81080392614287_1_alg».proof.Proof.Gen.KernelIdeal.Frame
import proofs.«171080_j81080392614287_1_alg».proof.Proof.RegionArrays
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx

theorem hz : (![0, 0] : Fin 2 → Nat) = fun _ => 0 := funext fun a => by fin_cases a <;> rfl

/-- The block index of every window at every point, decided over the 50 points: the two row-blocked inputs and
    the output sit at block row `t`; the weights and the bias row are always their one whole block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The windows' geometry, for any array in the window's place -/

/-- Window 0's block at point `t`: row `p` of the block is row `2000·t + p` of the array. -/
theorem rows0_apply (t : Fin cfg0.N) (A : S100000x128.Idx → EReal) (p : Fin 2000) (q : Fin 128) (P : Fin 100000)
    (hP : P.val = t.val * 2000 + p.val) :
    (((cfg0.win 0).blk t).view.read (Elt Ideal) A : Vec Ideal S2000x128 .f32) (ix2 p q) = A (ix2 P q) := by
  obtain ⟨e0, e1, -⟩ := idx_facts t
  rw [View.read_apply]
  show A _ = A _
  refine congrArg A (funext fun a => Fin.ext ?_)
  match a with
  | ⟨0, _⟩ => show win0_0.index t (0 : Fin 2) * 2000 + 1 * p.val = P.val; rw [e0, hP]; omega
  | ⟨1, _⟩ => show win0_0.index t (1 : Fin 2) * 128 + 1 * q.val = q.val; rw [e1]; omega

/-- Window 1's block at point `t`: the same rows of its own array. -/
theorem rows1_apply (t : Fin cfg0.N) (A : S100000x128.Idx → EReal) (p : Fin 2000) (q : Fin 128) (P : Fin 100000)
    (hP : P.val = t.val * 2000 + p.val) :
    (((cfg0.win 1).blk t).view.read (Elt Ideal) A : Vec Ideal S2000x128 .f32) (ix2 p q) = A (ix2 P q) := by
  obtain ⟨-, -, e0, e1, -⟩ := idx_facts t
  rw [View.read_apply]
  show A _ = A _
  refine congrArg A (funext fun a => Fin.ext ?_)
  match a with
  | ⟨0, _⟩ => show win0_1.index t (0 : Fin 2) * 2000 + 1 * p.val = P.val; rw [e0, hP]; omega
  | ⟨1, _⟩ => show win0_1.index t (1 : Fin 2) * 128 + 1 * q.val = q.val; rw [e1]; omega

/-- Window 2's block at every point is its whole array. -/
theorem whole2_apply (t : Fin cfg0.N) (A : S128x512.Idx → EReal) (q : Fin 128) (k : Fin 512) :
    (((cfg0.win 2).blk t).view.read (Elt Ideal) A : Vec Ideal S128x512 .bf16) (ix2 q k) = A (ix2 q k) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 128 + 1 * q.val = q.val; rw [e0]; omega
  | ⟨1, _⟩ => show win0_2.index t (1 : Fin 2) * 512 + 1 * k.val = k.val; rw [e1]; omega

/-- Window 3's block at every point is its whole one-row array. -/
theorem whole3_apply (t : Fin cfg0.N) (A : S1x512.Idx → EReal) (k : Fin 512) :
    (((cfg0.win 3).blk t).view.read (Elt Ideal) A : Vec Ideal S1x512 .f32) (ix2 (0 : Fin 1) k) = A (ix2 (0 : Fin 1) k) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 1 + 1 * 0 = 0; rw [e0]
  | ⟨1, _⟩ => show win0_3.index t (1 : Fin 2) * 512 + 1 * k.val = k.val; rw [e1]; omega

/-! ## Each fetched block, where it sits in the array the region finds -/

variable (m : (ℓ : Loc nD τ sig) → Buf (Elt Ideal) ℓ)

/-- The features' block at point `t` is rows `2000·t …` of the features. -/
theorem feat_block (c : Dev nD) (t : Fin cfg0.N) (p : Fin 2000) (q : Fin 128) (P : Fin 100000) (hP : P.val = t.val * 2000 + p.val) :
    (iblk m c 0 t : Vec Ideal S2000x128 .f32) (ix2 p q) = (m ((c : Thread nD τ).loc main_arg0) : S100000x128.Idx → EReal) (ix2 P q) := by
  unfold iblk
  exact (rows0_apply t (V m c main_arg0) p q P hP).trans (congrFun (V_main_arg0 m c) (ix2 P q))

/-- The aggregate's block at point `t` is rows `2000·t …` of the aggregate. -/
theorem agg_block (c : Dev nD) (t : Fin cfg0.N) (p : Fin 2000) (q : Fin 128) (P : Fin 100000) (hP : P.val = t.val * 2000 + p.val) :
    (iblk m c 1 t : Vec Ideal S2000x128 .f32) (ix2 p q) = (V m c main_v13 : S100000x128.Idx → EReal) (ix2 P q) := by
  unfold iblk
  exact rows1_apply t (V m c main_v13) p q P hP

/-- The weights' block at every point is the whole transposed matrix: entry `(q, k)` is entry `(k, q)` of the weights. -/
theorem wt_block (c : Dev nD) (t : Fin cfg0.N) (q : Fin 128) (k : Fin 512) :
    (iblk m c 2 t : Vec Ideal S128x512 .bf16) (ix2 q k) = (m ((c : Thread nD τ).loc main_arg2) : S512x128.Idx → EReal) (ix2 k q) := by
  unfold iblk
  exact (whole2_apply t (V m c main_v15) q k).trans (wt_apply m c q k)

/-- The bias' block at every point is the whole row: entry `(0, k)` is entry `k` of the bias. -/
theorem brow_block (c : Dev nD) (t : Fin cfg0.N) (k : Fin 512) :
    (iblk m c 3 t : Vec Ideal S1x512 .f32) (ix2 (0 : Fin 1) k) = (m ((c : Thread nD τ).loc main_arg3) : S512.Idx → EReal) (ix1 k) := by
  unfold iblk
  exact (whole3_apply t (V m c main_v16) k).trans (brow_apply m c k)

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.BodyEntry.lean ====
/-
  One grid point's body, read at an entry.

  The body receives a 2000 × 128 block of the features (`v0`), the matching block of the aggregated
  neighbour features (`v1`), the whole transposed weight matrix (`v5`, 128 × 512) and the bias as a
  1 × 512 row (`v8`). It adds the two blocks, multiplies by the weights from a zero accumulator and
  adds the bias row on every row. The narrowing of the sum to a 16-bit format before the product is
  the identity on the extended reals, so entry `(p, c)` of what it stores is

      Σ_{q < 128} (v0[p, q] + v1[p, q]) · v5[q, c]  +  v8[0, c].
-/
import proofs.«171080_j81080392614287_1_alg».proof.Proof.Gen.KernelIdeal.Skeleton
import proofs.«171080_j81080392614287_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The body's product contracts the block's columns against the weight matrix's rows: a plain matrix product. -/
theorem dot_plain : Cert.PlainDot.IsPlain dot_S2000x128_S128x512_S2000x512_1_0_0_1_n_n :=
  ⟨rfl, rfl, rfl, rfl, rfl, rfl⟩

/-- The bias row repeated down the block's 2000 rows holds, at `(p, c)`, the row's entry `c`. -/
theorem bias_rows_apply (v8 : S1x512.Idx → EReal) (p : Fin 2000) (c : Fin 512) :
    broadcastTo S2000x512 v8 broadcasts_S1x512_S2000x512 (ix2 p c) = v8 (ix2 (0 : Fin 1) c) :=
  broadcastTo_apply v8 broadcasts_S1x512_S2000x512 (ix2 p c) (ix2 (0 : Fin 1) c) (fun a => by
    match a with
    | ⟨0, _⟩ => show (0 : ℕ) = if (1 : ℕ) = 1 then 0 else _; rw [if_pos rfl]
    | ⟨1, _⟩ => show c.val = if (512 : ℕ) = 1 then 0 else c.val; rw [if_neg (by decide)])

/-- Entry `(p, c)` of what the body stores. -/
theorem pay_entry (v0 v1 : Vec Ideal S2000x128 .f32) (v5 : Vec Ideal S128x512 .bf16) (v8 : Vec Ideal S1x512 .f32)
    (p : Fin 2000) (c : Fin 512) :
    k0_pay1 v0 v1 v5 v8 (ix2 p c)
      = (∑ q : Fin 128, (v0 (ix2 p q) + v1 (ix2 p q)) * v5 (ix2 q c)) + v8 (ix2 (0 : Fin 1) c) := by
  unfold k0_pay1
  simp only [shapeCast_self]
  show matmul dot_S2000x128_S128x512_S2000x512_1_0_0_1_n_n none (truncf (F := Ideal) .bf16 (addf v0 v1) bitsLt_bf16_f32) v5
        (constant S2000x512 .f32 0x00000000#32) (ix2 p c)
      + broadcastTo S2000x512 v8 broadcasts_S1x512_S2000x512 (ix2 p c) = _
  rw [Cert.PlainDot.matmul_zero_apply dot_plain none _ _ p c, bias_rows_apply v8 p c]
  rfl

end Cert.KernelIdeal.Hand

end
-- ==== Proof.PointEntry.lean ====
/-
  One grid point's stored block is a block of the specified array.

  Suppose the two row blocks handed to the body are rows `2000·r …` of arrays `X` and `A`, the weight block
  is the transpose of `W` and the bias block is `B` as a row. Then the value the body stores at `(p, k)` is
  the specified entry `(2000·r + p, k)` for `X`, `A`, `W`, `B`: both are the same sum over the 128 columns.
-/
import proofs.«171080_j81080392614287_1_alg».proof.Proof.ResidualLinear
import proofs.«171080_j81080392614287_1_alg».proof.Proof.BodyEntry

noncomputable section

open scoped BigOperators

namespace Cert.KernelIdeal.Hand

open Cert.KernelIdeal Cert.KernelIdeal.Gen Idealize.ShloMosaic Idealize.ShloMosaic.ValueIdx

/-- Blocks that are rows `2000·r …` of `X` and of `A`, the transpose of `W` and the row of `B`: the body's stored
    value at `y` is the specified array at the index `2000·r` rows further down. -/
theorem point_entry (X A : S100000x128.Idx → EReal) (W : S512x128.Idx → EReal) (B : S512.Idx → EReal)
    (v0 v1 : Vec Ideal S2000x128 .f32) (v5 : Vec Ideal S128x512 .bf16) (v8 : Vec Ideal S1x512 .f32) (r : ℕ)
    (h0 : ∀ (p : Fin 2000) (q : Fin 128) (P : Fin 100000), P.val = r * 2000 + p.val → v0 (ix2 p q) = X (ix2 P q))
    (h1 : ∀ (p : Fin 2000) (q : Fin 128) (P : Fin 100000), P.val = r * 2000 + p.val → v1 (ix2 p q) = A (ix2 P q))
    (h5 : ∀ (q : Fin 128) (k : Fin 512), v5 (ix2 q k) = W (ix2 k q))
    (h8 : ∀ k : Fin 512, v8 (ix2 (0 : Fin 1) k) = B (ix1 k))
    (y : S2000x512.Idx) (i : S100000x512.Idx) (hi0 : (i 0).val = r * 2000 + (y 0).val) (hi1 : (i 1).val = (y 1).val) :
    k0_pay1 v0 v1 v5 v8 y = Cert.ResidualLinear.out X A W B i := by
  obtain ⟨p, k, rfl⟩ : ∃ (p : Fin 2000) (k : Fin 512), y = ix2 p k := ⟨y 0, y 1, eq_ix2 y⟩
  obtain ⟨P, K, rfl⟩ : ∃ (P : Fin 100000) (K : Fin 512), i = ix2 P K := ⟨i 0, i 1, eq_ix2 i⟩
  obtain rfl : K = k := Fin.ext hi1
  rw [pay_entry, Cert.ResidualLinear.out_apply]
  unfold Cert.ResidualLinear.entry
  rw [h8 K]
  refine congrArg (· + B (ix1 K)) (Finset.sum_congr rfl fun q _ => ?_)
  rw [h0 p q P hi0, h1 p q P hi0, h5 q K]

end Cert.KernelIdeal.Hand

end
-- ==== Proof.KernelValue.lean ====
/-
  The kernel's result array is the specified array.

  Point `t` writes back rows `2000·t … 2000·t + 1999` of the result. Reading the body's stored block at an
  entry, with each fetched block placed in its array, shows that what point `t` writes back is block `t` of
  the specified array. The 50 row blocks cover the 100000 rows (row `r` lies in block `r / 2000`), so after
  the run the result array is the specified array.
-/
import proofs.«171080_j81080392614287_1_alg».proof.Proof.Gen.KernelIdeal.Value
import proofs.«171080_j81080392614287_1_alg».proof.Proof.ResidualLinear
import proofs.«171080_j81080392614287_1_alg».proof.Proof.RegionArrays
import proofs.«171080_j81080392614287_1_alg».proof.Proof.BlockPlacement
import proofs.«171080_j81080392614287_1_alg».proof.Proof.PointEntry
import Idealize.ShloMosaic.Lib.Pipeline.Value
import Idealize.ShloMosaic.Lib.Tactic

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What point `t` writes back is block `t` of the specified array. -/
theorem flushed_eq (c : Dev nD) (t : Fin cfg0.N) :
    (dats m 0 c).flushed 4 t = ((cfg0.win 4).blk t).view.read (Elt Ideal)
      (Cert.ResidualLinear.out (m ((c : Thread nD τ).loc main_arg0)) (V m c main_v13)
        (m ((c : Thread nD τ).loc main_arg2)) (m ((c : Thread nD τ).loc main_arg3))) := by
  rw [flushed4]
  unfold out0_4
  rw [View.canon_unit_zero hz]
  simp only [View.ld_unit_zero (S := S2000x128) hz, View.ld_unit_zero (S := S128x512) hz, View.ld_unit_zero (S := S1x512) hz]
  obtain ⟨-, -, -, -, -, -, -, -, e0, e1⟩ := idx_facts t
  funext j
  show k0_pay1 (iblk m c 0 t) (iblk m c 1 t) (iblk m c 2 t) (iblk m c 3 t) ((cfg0.win 4).xinj (grid0.coords t) j)
      = Cert.ResidualLinear.out (m ((c : Thread nD τ).loc main_arg0)) (V m c main_v13)
          (m ((c : Thread nD τ).loc main_arg2)) (m ((c : Thread nD τ).loc main_arg3)) (((cfg0.win 4).blk t).view.emb j)
  refine point_entry (m ((c : Thread nD τ).loc main_arg0)) (V m c main_v13) (m ((c : Thread nD τ).loc main_arg2))
    (m ((c : Thread nD τ).loc main_arg3)) (iblk m c 0 t) (iblk m c 1 t) (iblk m c 2 t) (iblk m c 3 t) t.val
    (fun p q P hP => feat_block m c t p q P hP) (fun p q P hP => agg_block m c t p q P hP)
    (fun q k => wt_block m c t q k) (fun k => brow_block m c t k)
    ((cfg0.win 4).xinj (grid0.coords t) j) (((cfg0.win 4).blk t).view.emb j) ?_ ?_
  · show win0_4.index t (0 : Fin 2) * 2000 + 1 * (j 0).val = t.val * 2000 + (j 0).val
    rw [e0]; omega
  · show win0_4.index t (1 : Fin 2) * 512 + 1 * (j 1).val = (j 1).val
    rw [e1]; omega

/-! ## The blocks cover the array -/

/-- An index is in point `t`'s block iff each coordinate is in the block's range on its axis. -/
theorem mem_blk (t : Fin cfg0.N) (i : S100000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v17).slice (win0_4.rect t)).set ↔ _
  rw [View.set_slice_whole, Rect.mem_set_unit]
  exact Iff.rfl

/-- Row `r` lies in the block of point `r / 2000`. -/
theorem cover (i : S100000x512.Idx) : ∃ t : Fin cfg0.N, (cfg0.win 4).flush t = true ∧ i ∈ ((cfg0.win 4).blk t).view.set := by
  have hi0 : (i 0).val < 100000 := idx2_lt0 i
  have hi1 : (i 1).val < 512 := idx2_lt1 i
  have ht : (i 0).val / 2000 < cfg0.N := by rw [show cfg0.N = 50 from N_0]; omega
  obtain ⟨-, -, -, -, -, -, -, -, e0, e1⟩ := idx_facts ⟨(i 0).val / 2000, ht⟩
  refine ⟨⟨(i 0).val / 2000, ht⟩, flush0_4 _, ?_⟩
  rw [mem_blk]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_4.index ⟨(i 0).val / 2000, ht⟩ (1 : Fin 2) * 512 ≤ (i 1).val ∧ (i 1).val < win0_4.index ⟨(i 0).val / 2000, ht⟩ (1 : Fin 2) * 512 + 512
    rw [e1]
    omega

/-! ## The array after the run, and the run -/

/-- After the run the result array is the specified array of the arguments and the aggregate the region found. -/
theorem final (c : Dev nD) :
    (dats m 0 c).arrAt 4 cfg0.N = Cert.ResidualLinear.out (m ((c : Thread nD τ).loc main_arg0)) (V m c main_v13)
      (m ((c : Thread nD τ).loc main_arg2)) (m ((c : Thread nD τ).loc main_arg3)) :=
  (dats m 0 c).arrAt_eq_of_cover 4 _ (fun t _ => flushed_eq m c t) cover

/-- The kernel's run: the result array ends at the specified array, the aggregate being the reference's own stage
    of the features and the edge list; the arguments end unchanged. -/
theorem run : θ_run defs (onTc (τ := τ) (main (F := Ideal))) ⟨m, fun _ => 0, ρ⟩ fun r => ∀ c : Dev nD,
      r.2.mem ((c : Thread nD τ).loc main_v17)
        = Cert.ResidualLinear.out (m ((c : Thread nD τ).loc main_arg0))
            (Cert.ReferenceIdeal.Read.val_main_v13 (F := Ideal) (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [agg_eq m c])), (h c).2⟩)
    (run_blocks m ρ)

end Cert.KernelIdeal.Hand

end
-- ==== Proof.ReferenceEntry.lean ====
/-
  The reference's result is the specified array.

  The reference adds the aggregated neighbour features to the features, multiplies by the transposed
  weight matrix with one whole product, and adds the bias broadcast first to a 1 × 512 row and then
  down all rows. Reading the last stage at `(p, c)` through the product (a sum over the 128 contracted
  coordinates), the transposition (entry `(q, c)` of the transpose is entry `(c, q)` of the weights)
  and the two broadcasts gives the specified entry, with the aggregated array left as the stage that
  produced it.
-/
import proofs.«171080_j81080392614287_1_alg».proof.Proof.Gen.ReferenceIdeal.Read
import proofs.«171080_j81080392614287_1_alg».proof.Proof.ResidualLinear

noncomputable section

open scoped BigOperators

namespace Cert.ReferenceIdeal.Hand

open Cert.ReferenceIdeal Cert.ReferenceIdeal.Read Idealize.ShloMosaic Idealize.ShloMosaic.ValueIdx

variable (x0 : (⟨S100000x128, .f32⟩ : BufTy).Contents (Elt Ideal)) (x1 : (⟨S2x600000, .i32⟩ : BufTy).Contents (Elt Ideal))
  (x2 : (⟨S512x128, .f32⟩ : BufTy).Contents (Elt Ideal)) (x3 : (⟨S512, .f32⟩ : BufTy).Contents (Elt Ideal))

/-- Entry `(p, c)` of the reference's result. -/
theorem result_entry (p : Fin 100000) (c : Fin 512) :
    val_main_v19 (F := Ideal) x0 x1 x2 x3 (ix2 p c)
      = Cert.ResidualLinear.entry x0 (val_main_v13 (F := Ideal) x0 x1) x2 x3 p c := by
  have hl : ∀ k : Fin 128, lidx_main_v16 (ix2 p c) k = ix2 p k := fun k => funext fun a => Fin.ext (by
    match a with
    | ⟨0, _⟩ => rfl
    | ⟨1, _⟩ => rfl)
  have hr : ∀ k : Fin 128, idx_main_v15 (ridx_main_v16 (ix2 p c) k) = ix2 c k := fun k => funext fun a => Fin.ext (by
    match a with
    | ⟨0, _⟩ => rfl
    | ⟨1, _⟩ => rfl)
  have hb : idx_main_v17 (idx_main_v18 (ix2 p c)) = ix1 c := funext fun a => Fin.ext (by
    match a with
    | ⟨0, _⟩ => rfl)
  rw [val_main_v19_apply, val_main_v16_apply, val_main_v18_apply, val_main_v17_apply, hb]
  unfold Cert.ResidualLinear.entry
  refine congrArg (· + x3 (ix1 c)) (Finset.sum_congr rfl fun k _ => ?_)
  rw [val_main_v14_apply, val_main_v15_apply, hl k, hr k]
  rfl

/-- The reference's result array. -/
theorem result_eq :
    val_main_v19 (F := Ideal) x0 x1 x2 x3 = Cert.ResidualLinear.out x0 (val_main_v13 (F := Ideal) x0 x1) x2 x3 :=
  Cert.ResidualLinear.eq_out _ _ _ _ _ (result_entry x0 x1 x2 x3)

end Cert.ReferenceIdeal.Hand

end
-- ==== Proof.lean ====
/-
  A graph-convolution layer with a residual connection and a linear map, computed two ways.

  The inputs are node features `x` (100000 × 128), an edge list (2 × 600000: targets in row 0, sources in
  row 1), weights `W` (512 × 128) and a bias `b` (512). Both programs first aggregate: the feature rows are
  gathered at the edges' sources (a negative source index wrapped by adding 100000) and added into the
  rows named by the edges' targets, starting from zero; call the result `a`. Both then form

      out[p, c] = Σ_{q < 128} (x[p, q] + a[p, q]) · W[c, q]  +  b[c].

  The reference does this with whole-array operations: one sum of arrays, one product against the
  transposed weights, the bias broadcast to every row. The kernel transposes the weights and reshapes the
  bias to a row on the host, then walks 50 blocks of 2000 rows; for each it adds the two row blocks,
  narrows the sum and uses the narrowed weights (both narrowings are the identity on the extended reals),
  multiplies from a zero accumulator and adds the bias row.

  The aggregation is the same list of host operations in both programs, so `a` is one and the same term
  and is never opened. After it, each entry of either result is the same finite sum of the same products
  in the same order plus the same bias entry: equality needs no rearrangement of sums, hence no finiteness
  of the inputs, and the precondition is not used. The kernel's side reads the stored block of one grid
  point at an entry, places each fetched block in its array, and covers the 100000 rows by the 50 blocks;
  the reference's side reads its last stage at an entry through the product, the transposition and the
  broadcasts. The kernel read on the extended reals is the kernel's own text (no operation was rewritten),
  so that conjunct is trivial; the three frames are the generated runs.
-/
import proofs.«171080_j81080392614287_1_alg».proof.Defs
import proofs.«171080_j81080392614287_1_alg».proof.Proof.Gen.Kernel
import proofs.«171080_j81080392614287_1_alg».proof.Proof.Gen.Kernel.Skeleton
import proofs.«171080_j81080392614287_1_alg».proof.Proof.Gen.Kernel.Launch
import proofs.«171080_j81080392614287_1_alg».proof.Proof.Gen.Kernel.Points
import proofs.«171080_j81080392614287_1_alg».proof.Proof.Gen.Kernel.Frame
import proofs.«171080_j81080392614287_1_alg».proof.Proof.Gen.KernelIdeal
import proofs.«171080_j81080392614287_1_alg».proof.Proof.Gen.KernelIdeal.Skeleton
import proofs.«171080_j81080392614287_1_alg».proof.Proof.Gen.KernelIdeal.Launch
import proofs.«171080_j81080392614287_1_alg».proof.Proof.Gen.KernelIdeal.Points
import proofs.«171080_j81080392614287_1_alg».proof.Proof.Gen.KernelIdeal.Frame
import proofs.«171080_j81080392614287_1_alg».proof.Proof.Gen.ReferenceIdeal
import proofs.«171080_j81080392614287_1_alg».proof.Proof.Gen.Pre_finite_inputs
import proofs.«171080_j81080392614287_1_alg».proof.Proof.Gen.KernelIdeal.Value
import proofs.«171080_j81080392614287_1_alg».proof.Proof.Gen.ReferenceIdeal.Run
import proofs.«171080_j81080392614287_1_alg».proof.Proof.Gen.ReferenceIdeal.Read
import proofs.«171080_j81080392614287_1_alg».proof.Proof.KernelValue
import proofs.«171080_j81080392614287_1_alg».proof.Proof.ReferenceEntry
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the arguments both programs end with the specified array of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Hand.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
